-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel program's run with its result named.

  The program is eight segments: three stretches of host operations (the self loops, the source and
  destination index vectors, the degrees and the edge weights), the first row-blocked matrix product,
  two stretches (gather, scale, scatter-add, bias, rectifier), the second matrix product, and a last stretch
  (gather, scale, scatter-add, bias). Every weakly fair execution runs through the segments in order, and
  the buffer contents at the boundaries are a fold from the launch memory: a host stretch replaces the
  buffers it writes by its operations' values, a product region replaces its output array by what its ten
  row blocks write back. So at the end every unscoped buffer holds the last boundary's contents: the
  argument arrays what they held at launch, and the result buffer the last stretch's value at it, which is
  what this module adds to the statement about the arguments alone.
-/
import proofs.«177517_j80023830659738_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the
    last boundary's contents at it, and each argument array what it held at launch. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Product0.lean ====
/-
  The first matrix product, from row blocks to the whole array.

  The region's grid has ten points. Point t stages rows 5000·t … 5000·t + 4999 of the left operand
  (a [50000, 128] array), the whole right operand (a [128, 256] array) at every point, and writes back rows
  5000·t … 5000·t + 4999 of the [50000, 256] output. The body rounds both staged blocks to bf16, which is the identity
  on the extended reals, and multiplies them into a zero accumulator, so entry (a, b) of what point t writes
  back is the sum over k of x(5000·t + a, k) · w(k, b): block t of the whole product of the two arrays as the
  region finds them. The ten row blocks tile the output (row r is in block r / 5000), so after the region
  the output array is the whole product. Everything is stated for any contents `V` at the region's entry.
-/
import proofs.«177517_j80023830659738_1_alg».proof.Proof.Gen.KernelIdeal.Frame
import proofs.«177517_j80023830659738_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product0

open Cert.KernelIdeal Cert.KernelIdeal.Gen
open Idealize.ShloMosaic Idealize.ShloMosaic.TcCoe Idealize.SL.Sem Idealize.ShloMosaic.ValueIdx
open Idealize.ShloMosaic.Pipeline (Dat)

/-- The whole product of a [50000, 128] array and a [128, 256] array: entry (r, s) is the sum over k of x(r, k) · w(k, s). -/
def prod (x : FVec Ideal S50000x128 .f32) (w : FVec Ideal S128x256 .f32) : FVec Ideal S50000x256 .f32 :=
  fun i => ∑ k : Fin 128, x (ix2 (i 0) k) * w (ix2 k (i 1))

theorem prod_apply (x : FVec Ideal S50000x128 .f32) (w : FVec Ideal S128x256 .f32) (r : Fin 50000) (s : Fin 256) :
    prod x w (ix2 r s) = ∑ k : Fin 128, x (ix2 r k) * w (ix2 k s) := rfl

theorem hz : (![0, 0] : Fin 2 → Nat) = fun _ => 0 := funext fun a => by fin_cases a <;> rfl

/-- The body's stored value at entry (a, b) of the block: the rounding to bf16 is the identity, and the product
    into the zero accumulator is the plain sum over the contracted axis. -/
theorem pay_apply (x0 : Vec Ideal S5000x128 .f32) (x1 : Vec Ideal S128x256 .f32) (a : Fin 5000) (b : Fin 256) :
    k0_pay1 (F := Ideal) x0 x1 (ix2 a b) = ∑ k : Fin 128, x0 (ix2 a k) * x1 (ix2 k b) := by
  unfold k0_pay1
  exact Cert.LibPlainMatmul.matmul_zero_apply dot_S5000x128_S128x256_S5000x256_1_0_0_1_n_n rfl rfl rfl rfl rfl rfl none _ _ a b

/-- One entry of a written-back block against the whole product: if the staged left block is rows
    5000·q … of `X` and the staged right block is all of `W`, then entry `j` of the body's value is entry
    `i` of the product, where `i` is `j` moved down by 5000·q rows. -/
theorem block_entry (x0 : Vec Ideal S5000x128 .f32) (x1 : Vec Ideal S128x256 .f32)
    (X : FVec Ideal S50000x128 .f32) (W : FVec Ideal S128x256 .f32) (q : Nat)
    (i : S50000x256.Idx) (j : S5000x256.Idx)
    (hi0 : (i 0).val = q * 5000 + (j 0).val) (hi1 : (i 1).val = (j 1).val)
    (h0 : ∀ (y : S5000x128.Idx) (z : S50000x128.Idx), (z 0).val = q * 5000 + (y 0).val → (z 1).val = (y 1).val → x0 y = X z)
    (h1 : ∀ y : S128x256.Idx, x1 y = W y) :
    k0_pay1 (F := Ideal) x0 x1 j = prod X W i := by
  obtain ⟨a, b, rfl⟩ : ∃ (a : Fin 5000) (b : Fin 256), j = ix2 a b := ⟨j 0, j 1, eq_ix2 j⟩
  obtain ⟨r, s, rfl⟩ : ∃ (r : Fin 50000) (s : Fin 256), i = ix2 r s := ⟨i 0, i 1, eq_ix2 i⟩
  have hs : s = b := Fin.ext hi1
  subst hs
  rw [pay_apply, prod_apply]
  refine Finset.sum_congr rfl fun k _ => ?_
  rw [h0 (ix2 a k) (ix2 r k) hi0 rfl, h1]

variable (V : (c : Dev nD) → (b : Ref sig .tc) → Buf (Elt Ideal) ((c : Thread nD τ).loc b))

/-- The printed index maps over the grid: the left operand's and the output's block move down one block of rows per
    point, the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region was entered with. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨e00, e01, e10, e11, e20, e21⟩ := idx_facts t
  funext j
  show k0_pay1 (F := Ideal) (iblk0 V c 0 t) (iblk0 V c 1 t) j = prod (V c main_arg0) (V c main_arg2) (((cfg0.win 2).blk t).view.emb j)
  refine block_entry (iblk0 V c 0 t) (iblk0 V c 1 t) (V c main_arg0) (V c main_arg2) t.val _ j ?_ ?_ ?_ ?_
  · show win0_2.index t (0 : Fin 2) * 5000 + 1 * (j 0).val = t.val * 5000 + (j 0).val
    rw [e20]; omega
  · show win0_2.index t (1 : Fin 2) * 256 + 1 * (j 1).val = (j 1).val
    rw [e21]; omega
  · intro y z hz0 hz1
    show V c main_arg0 (((cfg0.win 0).blk t).view.emb y) = V c main_arg0 z
    refine congrArg (V c main_arg0) (funext fun d => Fin.ext ?_)
    match d with
    | ⟨0, _⟩ => show win0_0.index t (0 : Fin 2) * 5000 + 1 * (y 0).val = (z 0).val; rw [e00, hz0]; omega
    | ⟨1, _⟩ => show win0_0.index t (1 : Fin 2) * 128 + 1 * (y 1).val = (z 1).val; rw [e01, hz1]; omega
  · intro y
    show V c main_arg2 (((cfg0.win 1).blk t).view.emb y) = V c main_arg2 y
    refine congrArg (V c main_arg2) (funext fun d => Fin.ext ?_)
    match d with
    | ⟨0, _⟩ => show win0_1.index t (0 : Fin 2) * 128 + 1 * (y 0).val = (y 0).val; rw [e10]; omega
    | ⟨1, _⟩ => show win0_1.index t (1 : Fin 2) * 256 + 1 * (y 1).val = (y 1).val; rw [e11]; omega

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- Every index of the output array is in some point's block: row r is in block r / 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  have hq : (i 0).val / 5000 < cfg0.N := by rw [hN]; omega
  refine ⟨⟨(i 0).val / 5000, hq⟩, flush0_2 _, ?_⟩
  rw [mem_blk]
  obtain ⟨-, -, -, -, e20, e21⟩ := idx_facts ⟨(i 0).val / 5000, hq⟩
  intro a
  match a with
  | ⟨0, _⟩ =>
    show win0_2.index ⟨(i 0).val / 5000, hq⟩ (0 : Fin 2) * 5000 ≤ (i 0).val ∧ (i 0).val < win0_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hq⟩ (1 : Fin 2) * 256 ≤ (i 1).val ∧ (i 1).val < win0_2.index ⟨(i 0).val / 5000, hq⟩ (1 : Fin 2) * 256 + 256
    rw [e21]; omega

/-- After the region the output array is the whole product of the arrays the region was entered with. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Product0

end
-- ==== Proof.Product1.lean ====
/-
  The second matrix product, from row blocks to the whole array.

  The region's grid has ten points. Point t stages rows 5000·t … 5000·t + 4999 of the left operand
  (a [50000, 256] array), the whole right operand (a [256, 128] array) at every point, and writes back rows
  5000·t … 5000·t + 4999 of the [50000, 128] output. The body rounds both staged blocks to bf16, which is the identity
  on the extended reals, and multiplies them into a zero accumulator, so entry (a, b) of what point t writes
  back is the sum over k of x(5000·t + a, k) · w(k, b): block t of the whole product of the two arrays as the
  region finds them. The ten row blocks tile the output (row r is in block r / 5000), so after the region
  the output array is the whole product. Everything is stated for any contents `V` at the region's entry.
-/
import proofs.«177517_j80023830659738_1_alg».proof.Proof.Gen.KernelIdeal.Frame
import proofs.«177517_j80023830659738_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product1

open Cert.KernelIdeal Cert.KernelIdeal.Gen
open Idealize.ShloMosaic Idealize.ShloMosaic.TcCoe Idealize.SL.Sem Idealize.ShloMosaic.ValueIdx
open Idealize.ShloMosaic.Pipeline (Dat)

/-- The whole product of a [50000, 256] array and a [256, 128] array: entry (r, s) is the sum over k of x(r, k) · w(k, s). -/
def prod (x : FVec Ideal S50000x256 .f32) (w : FVec Ideal S256x128 .f32) : FVec Ideal S50000x128 .f32 :=
  fun i => ∑ k : Fin 256, x (ix2 (i 0) k) * w (ix2 k (i 1))

theorem prod_apply (x : FVec Ideal S50000x256 .f32) (w : FVec Ideal S256x128 .f32) (r : Fin 50000) (s : Fin 128) :
    prod x w (ix2 r s) = ∑ k : Fin 256, x (ix2 r k) * w (ix2 k s) := rfl

theorem hz : (![0, 0] : Fin 2 → Nat) = fun _ => 0 := funext fun a => by fin_cases a <;> rfl

/-- The body's stored value at entry (a, b) of the block: the rounding to bf16 is the identity, and the product
    into the zero accumulator is the plain sum over the contracted axis. -/
theorem pay_apply (x0 : Vec Ideal S5000x256 .f32) (x1 : Vec Ideal S256x128 .f32) (a : Fin 5000) (b : Fin 128) :
    k1_pay1 (F := Ideal) x0 x1 (ix2 a b) = ∑ k : Fin 256, x0 (ix2 a k) * x1 (ix2 k b) := by
  unfold k1_pay1
  rw [shapeCast_self]
  exact Cert.LibPlainMatmul.matmul_zero_apply dot_S5000x256_S256x128_S5000x128_1_0_0_1_n_n rfl rfl rfl rfl rfl rfl none _ _ a b

/-- One entry of a written-back block against the whole product: if the staged left block is rows
    5000·q … of `X` and the staged right block is all of `W`, then entry `j` of the body's value is entry
    `i` of the product, where `i` is `j` moved down by 5000·q rows. -/
theorem block_entry (x0 : Vec Ideal S5000x256 .f32) (x1 : Vec Ideal S256x128 .f32)
    (X : FVec Ideal S50000x256 .f32) (W : FVec Ideal S256x128 .f32) (q : Nat)
    (i : S50000x128.Idx) (j : S5000x128.Idx)
    (hi0 : (i 0).val = q * 5000 + (j 0).val) (hi1 : (i 1).val = (j 1).val)
    (h0 : ∀ (y : S5000x256.Idx) (z : S50000x256.Idx), (z 0).val = q * 5000 + (y 0).val → (z 1).val = (y 1).val → x0 y = X z)
    (h1 : ∀ y : S256x128.Idx, x1 y = W y) :
    k1_pay1 (F := Ideal) x0 x1 j = prod X W i := by
  obtain ⟨a, b, rfl⟩ : ∃ (a : Fin 5000) (b : Fin 128), j = ix2 a b := ⟨j 0, j 1, eq_ix2 j⟩
  obtain ⟨r, s, rfl⟩ : ∃ (r : Fin 50000) (s : Fin 128), i = ix2 r s := ⟨i 0, i 1, eq_ix2 i⟩
  have hs : s = b := Fin.ext hi1
  subst hs
  rw [pay_apply, prod_apply]
  refine Finset.sum_congr rfl fun k _ => ?_
  rw [h0 (ix2 a k) (ix2 r k) hi0 rfl, h1]

variable (V : (c : Dev nD) → (b : Ref sig .tc) → Buf (Elt Ideal) ((c : Thread nD τ).loc b))

/-- The printed index maps over the grid: the left operand's and the output's block move down one block of rows per
    point, the right operand's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays the region was entered with. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  obtain ⟨e00, e01, e10, e11, e20, e21⟩ := idx_facts t
  funext j
  show k1_pay1 (F := Ideal) (iblk1 V c 0 t) (iblk1 V c 1 t) j = prod (V c main_v47) (V c main_arg4) (((cfg1.win 2).blk t).view.emb j)
  refine block_entry (iblk1 V c 0 t) (iblk1 V c 1 t) (V c main_v47) (V c main_arg4) t.val _ j ?_ ?_ ?_ ?_
  · show win1_2.index t (0 : Fin 2) * 5000 + 1 * (j 0).val = t.val * 5000 + (j 0).val
    rw [e20]; omega
  · show win1_2.index t (1 : Fin 2) * 128 + 1 * (j 1).val = (j 1).val
    rw [e21]; omega
  · intro y z hz0 hz1
    show V c main_v47 (((cfg1.win 0).blk t).view.emb y) = V c main_v47 z
    refine congrArg (V c main_v47) (funext fun d => Fin.ext ?_)
    match d with
    | ⟨0, _⟩ => show win1_0.index t (0 : Fin 2) * 5000 + 1 * (y 0).val = (z 0).val; rw [e00, hz0]; omega
    | ⟨1, _⟩ => show win1_0.index t (1 : Fin 2) * 256 + 1 * (y 1).val = (z 1).val; rw [e01, hz1]; omega
  · intro y
    show V c main_arg4 (((cfg1.win 1).blk t).view.emb y) = V c main_arg4 y
    refine congrArg (V c main_arg4) (funext fun d => Fin.ext ?_)
    match d with
    | ⟨0, _⟩ => show win1_1.index t (0 : Fin 2) * 256 + 1 * (y 0).val = (y 0).val; rw [e10]; omega
    | ⟨1, _⟩ => show win1_1.index t (1 : Fin 2) * 128 + 1 * (y 1).val = (y 1).val; rw [e11]; omega

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every index of the output array is in some point's block: row r is in block r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have hq : (i 0).val / 5000 < cfg1.N := by rw [hN]; omega
  refine ⟨⟨(i 0).val / 5000, hq⟩, flush1_2 _, ?_⟩
  rw [mem_blk]
  obtain ⟨-, -, -, -, e20, e21⟩ := idx_facts ⟨(i 0).val / 5000, hq⟩
  intro a
  match a with
  | ⟨0, _⟩ =>
    show win1_2.index ⟨(i 0).val / 5000, hq⟩ (0 : Fin 2) * 5000 ≤ (i 0).val ∧ (i 0).val < win1_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hq⟩ (1 : Fin 2) * 128 ≤ (i 1).val ∧ (i 1).val < win1_2.index ⟨(i 0).val / 5000, hq⟩ (1 : Fin 2) * 128 + 128
    rw [e21]; omega

/-- After the region the output array is the whole product of the arrays the region was entered with. -/
theorem final (c : Dev nD) : (dat1 V c).arrAt 2 cfg1.N = prod (V c main_v47) (V c main_arg4) :=
  (dat1 V c).arrAt_eq_of_cover 2 (prod (V c main_v47) (V c main_arg4)) (fun t _ => flushed_eq V c t) cover

end Cert.KernelIdeal.Product1

end
-- ==== Proof.HostChain.lean ====
/-
  The kernel program's host side, boundary by boundary, against the reference's stages.

  Both programs compute, from the edge list, the source and destination index vectors with the self loops
  appended, the in-degrees by a scatter-add of ones, their inverse square roots, and the edge weights; then
  twice: a product of the node features with a weight matrix, a gather of the product's rows at the sources,
  a scaling by the edge weights, a scatter-add into the destinations, and a bias (with a rectifier between the
  two layers). They differ in one thing only: the reference's two products are host products, the kernel
  program's are the two row-blocked regions. So the kernel program's buffer contents at each boundary of its
  run are the reference's stages of the same arguments:
    * after the first three stretches the index vectors and the edge weights are the reference's (the same
      operations of the same edge list), and the arguments are untouched;
    * after the first region the product buffer holds the whole product (the region's row blocks tile it),
      which entry by entry is the host product: both are the sum over k of x(r, k) · w(k, s);
    * after the next two stretches the rectified layer is the reference's (the same operations of equal operands);
    * after the second region the second product, likewise;
    * after the last stretch the result is the reference's last stage.
  The shared operations are never opened: each step rewrites the operands and closes by the stages' definitions.
-/
import proofs.«177517_j80023830659738_1_alg».proof.Proof.Gen.KernelIdeal.Frame
import proofs.«177517_j80023830659738_1_alg».proof.Proof.ReadP
import proofs.«177517_j80023830659738_1_alg».proof.Proof.Product0
import proofs.«177517_j80023830659738_1_alg».proof.Proof.Product1
import Idealize.ShloMosaic.Lib.StableHlo.Run
import Idealize.ShloMosaic.Lib.ValueIdx

set_option maxRecDepth 16384

noncomputable section

open scoped BigOperators

namespace Cert.KernelIdeal.Chain

open Cert.KernelIdeal Cert.KernelIdeal.Gen Cert.ReferenceIdeal.ReadP
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## After the first three stretches of host operations: the index vectors, the edge weights, the arguments -/

theorem src_at3 : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results
  rfl

theorem dst_at3 : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  after_results
  rfl

theorem src_at2 : W2 m ρ c (Proc.devRef .tc main_v3) = val_main_v3 (F := Ideal) (m ((c : Thread nD τ).loc main_arg1)) := by
  show StableHlo.after hostOps0_1 (StableHlo.after hostOps0 (W0 m ρ c)) (Proc.devRef .tc main_v3) = _
  after_results
  rfl

theorem dst_at2 : W2 m ρ c (Proc.devRef .tc main_v6) = val_main_v6 (F := Ideal) (m ((c : Thread nD τ).loc main_arg1)) := by
  show StableHlo.after hostOps0_1 (StableHlo.after hostOps0 (W0 m ρ c)) (Proc.devRef .tc main_v6) = _
  after_results
  rfl

/-- The degree mask, the inverse square roots of the degrees and the zero the mask selects against, after the first stretch. -/
theorem mask_at1 : W1 m ρ c (Proc.devRef .tc main_v12) = val_main_v12 (F := Ideal) (m ((c : Thread nD τ).loc main_arg1)) := by
  show StableHlo.after hostOps0 (W0 m ρ c) (Proc.devRef .tc main_v12) = _
  after_results
  rfl

theorem rsqrt_at1 : W1 m ρ c (Proc.devRef .tc main_v13) = val_main_v13 (F := Ideal) (m ((c : Thread nD τ).loc main_arg1)) := by
  show StableHlo.after hostOps0 (W0 m ρ c) (Proc.devRef .tc main_v13) = _
  after_results
  rfl

theorem zero_at1 : W1 m ρ c (Proc.devRef .tc main_cst_2) = val_main_cst_2 (F := Ideal) := by
  show StableHlo.after hostOps0 (W0 m ρ c) (Proc.devRef .tc main_cst_2) = _
  after_results
  rfl

/-- The selection stretch from any contents: where the mask holds, the second operand, elsewhere the splat of the third. -/
theorem where_stage (V : Valuation τ sig (Elt Ideal)) (p : (⟨S50000, .i1⟩ : BufTy).Contents (Elt Ideal))
    (r : (⟨S50000, .f32⟩ : BufTy).Contents (Elt Ideal)) (z : (⟨S_, .f32⟩ : BufTy).Contents (Elt Ideal))
    (hp : V (Proc.devRef .tc main_v12) = p) (hr : V (Proc.devRef .tc main_v13) = r) (hz : V (Proc.devRef .tc main_cst_2) = z) :
    StableHlo.after hostOps0_1 V (Proc.devRef .tc main_v14) = select p r (broadcastInDim S50000 ![] bcast_S_S50000 (id z)) := by
  after_results
  rw [hp, hr, hz]
  rfl

/-- The inverse square roots of the degrees (zero where the degree is not positive). -/
theorem dinv_at2 : W2 m ρ c (Proc.devRef .tc main_v14) = val_main_v14 (F := Ideal) (m ((c : Thread nD τ).loc main_arg1)) :=
  (where_stage (W1 m ρ c) _ _ _ (mask_at1 m ρ c) (rsqrt_at1 m ρ c) (zero_at1 m ρ c)).trans rfl

set_option maxHeartbeats 4000000 in
/-- The edge weights from any contents that hold the inverse square roots and the two index vectors. -/
theorem norm_stage (V : Valuation τ sig (Elt Ideal)) (x1 : (⟨S2x800000, .i32⟩ : BufTy).Contents (Elt Ideal))
    (h14 : V (Proc.devRef .tc main_v14) = val_main_v14 (F := Ideal) x1)
    (h3 : V (Proc.devRef .tc main_v3) = val_main_v3 (F := Ideal) x1)
    (h6 : V (Proc.devRef .tc main_v6) = val_main_v6 (F := Ideal) x1) :
    StableHlo.after hostOps0_2 V (Proc.devRef .tc main_v29) = val_main_v29 (F := Ideal) x1 := by
  after_results_simp
  rw [h14, h3, h6]
  rfl

theorem norm_at3 : W3 m ρ c (Proc.devRef .tc main_v29) = val_main_v29 (F := Ideal) (m ((c : Thread nD τ).loc main_arg1)) :=
  norm_stage (W2 m ρ c) _ (dinv_at2 m ρ c) (src_at2 m ρ c) (dst_at2 m ρ c)

theorem arg0_at3 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results

theorem arg2_at3 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results

theorem arg3_at3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results

theorem arg4_at3 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results

theorem arg5_at3 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results

/-! ## After the first region: its output is the whole product, every other buffer is as it was -/

theorem src_at4 : W4 m ρ c (Proc.devRef .tc main_v3) = val_main_v3 (F := Ideal) (m ((c : Thread nD τ).loc main_arg1)) :=
  (W4_of_ne m ρ c main_v3 (by decide)).trans (src_at3 m ρ c)

theorem dst_at4 : W4 m ρ c (Proc.devRef .tc main_v6) = val_main_v6 (F := Ideal) (m ((c : Thread nD τ).loc main_arg1)) :=
  (W4_of_ne m ρ c main_v6 (by decide)).trans (dst_at3 m ρ c)

theorem norm_at4 : W4 m ρ c (Proc.devRef .tc main_v29) = val_main_v29 (F := Ideal) (m ((c : Thread nD τ).loc main_arg1)) :=
  (W4_of_ne m ρ c main_v29 (by decide)).trans (norm_at3 m ρ c)

theorem arg3_at4 : W4 m ρ c (Proc.devRef .tc main_arg3) = (m ((c : Thread nD τ).loc main_arg3)) :=
  (W4_of_ne m ρ c main_arg3 (by decide)).trans (arg3_at3 m ρ c)

theorem arg4_at4 : W4 m ρ c (Proc.devRef .tc main_arg4) = (m ((c : Thread nD τ).loc main_arg4)) :=
  (W4_of_ne m ρ c main_arg4 (by decide)).trans (arg4_at3 m ρ c)

theorem arg5_at4 : W4 m ρ c (Proc.devRef .tc main_arg5) = (m ((c : Thread nD τ).loc main_arg5)) :=
  (W4_of_ne m ρ c main_arg5 (by decide)).trans (arg5_at3 m ρ c)

/-- The first product buffer after the first region is the reference's host product of the two arguments: entry (r, s)
    of either is the sum over k of x(r, k) · w(k, s). -/
theorem prod_at4 : W4 m ρ c (Proc.devRef .tc main_v30) = val_main_v30 (F := Ideal) (m ((c : Thread nD τ).loc main_arg0)) (m ((c : Thread nD τ).loc main_arg2)) := by
  refine (W4_arr m ρ c 2).trans ?_
  rw [Product0.final (V3 m ρ) c]
  show Product0.prod (W3 m ρ c (Proc.devRef .tc main_arg0)) (W3 m ρ c (Proc.devRef .tc main_arg2)) = _
  rw [arg0_at3, arg2_at3]
  funext i
  obtain ⟨r, s, rfl⟩ : ∃ (r : Fin 50000) (s : Fin 256), i = ix2 r s := ⟨i 0, i 1, eq_ix2 i⟩
  rw [val_main_v30_apply, Product0.prod_apply]
  refine Finset.sum_congr rfl fun k _ => ?_
  have el : lidx_main_v30 (ix2 r s) k = ix2 r k := funext fun a => Fin.ext (by match a with | ⟨0, _⟩ => rfl | ⟨1, _⟩ => rfl)
  have er : ridx_main_v30 (ix2 r s) k = ix2 k s := funext fun a => Fin.ext (by match a with | ⟨0, _⟩ => rfl | ⟨1, _⟩ => rfl)
  rw [el, er]

/-! ## After the two stretches between the regions: the rectified first layer -/

theorem src_at6 : W6 m ρ c (Proc.devRef .tc main_v3) = val_main_v3 (F := Ideal) (m ((c : Thread nD τ).loc main_arg1)) := by
  show StableHlo.after hostOps1_1 (StableHlo.after hostOps1 (W4 m ρ c)) (Proc.devRef .tc main_v3) = _
  after_results
  exact src_at4 m ρ c

theorem dst_at6 : W6 m ρ c (Proc.devRef .tc main_v6) = val_main_v6 (F := Ideal) (m ((c : Thread nD τ).loc main_arg1)) := by
  show StableHlo.after hostOps1_1 (StableHlo.after hostOps1 (W4 m ρ c)) (Proc.devRef .tc main_v6) = _
  after_results
  exact dst_at4 m ρ c

theorem norm_at6 : W6 m ρ c (Proc.devRef .tc main_v29) = val_main_v29 (F := Ideal) (m ((c : Thread nD τ).loc main_arg1)) := by
  show StableHlo.after hostOps1_1 (StableHlo.after hostOps1 (W4 m ρ c)) (Proc.devRef .tc main_v29) = _
  after_results
  exact norm_at4 m ρ c

theorem arg4_at6 : W6 m ρ c (Proc.devRef .tc main_arg4) = (m ((c : Thread nD τ).loc main_arg4)) := by
  show StableHlo.after hostOps1_1 (StableHlo.after hostOps1 (W4 m ρ c)) (Proc.devRef .tc main_arg4) = _
  after_results
  exact arg4_at4 m ρ c

theorem arg5_at6 : W6 m ρ c (Proc.devRef .tc main_arg5) = (m ((c : Thread nD τ).loc main_arg5)) := by
  show StableHlo.after hostOps1_1 (StableHlo.after hostOps1 (W4 m ρ c)) (Proc.devRef .tc main_arg5) = _
  after_results
  exact arg5_at4 m ρ c

set_option maxHeartbeats 4000000 in
/-- The first layer before its rectifier, from any contents that hold the first product, the index vectors, the edge
    weights and the first bias: the same gather, scaling, scatter-add and bias as the reference's, of equal operands. -/
theorem layer_stage (V : Valuation τ sig (Elt Ideal))
    (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (h30 : V (Proc.devRef .tc main_v30) = val_main_v30 (F := Ideal) x0 x2)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (hb : V (Proc.devRef .tc main_arg3) = x3) :
    StableHlo.after hostOps1 V (Proc.devRef .tc main_v46) = val_main_v46 (F := Ideal) x0 x1 x2 x3 := by
  after_results_simp
  rw [h30, h3, h6, h29, hb]
  rfl

/-- The rectifier stretch from any contents: the maximum of its operand with the splat of zero. -/
theorem relu_stage (V : Valuation τ sig (Elt Ideal)) (y : (⟨S50000x256, .f32⟩ : BufTy).Contents (Elt Ideal))
    (hy : V (Proc.devRef .tc main_v46) = y) :
    StableHlo.after hostOps1_1 V (Proc.devRef .tc main_v47)
      = maximumf y (broadcastInDim S50000x256 ![] bcast_S_S50000x256 (constant (F := Ideal) S_ .f32 0x00000000#32)) := by
  after_results
  rw [hy]
  rfl

theorem layer_at5 : W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) :=
  layer_stage (W4 m ρ c) _ _ _ _ (prod_at4 m ρ c) (src_at4 m ρ c) (dst_at4 m ρ c) (norm_at4 m ρ c) (arg3_at4 m ρ c)

/-- The rectified first layer. -/
theorem act_at6 : W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) :=
  (relu_stage (W5 m ρ c) _ (layer_at5 m ρ c)).trans rfl

/-! ## After the second region -/

theorem src_at7 : W7 m ρ c (Proc.devRef .tc main_v3) = val_main_v3 (F := Ideal) (m ((c : Thread nD τ).loc main_arg1)) :=
  (W7_of_ne m ρ c main_v3 (by decide)).trans (src_at6 m ρ c)

theorem dst_at7 : W7 m ρ c (Proc.devRef .tc main_v6) = val_main_v6 (F := Ideal) (m ((c : Thread nD τ).loc main_arg1)) :=
  (W7_of_ne m ρ c main_v6 (by decide)).trans (dst_at6 m ρ c)

theorem norm_at7 : W7 m ρ c (Proc.devRef .tc main_v29) = val_main_v29 (F := Ideal) (m ((c : Thread nD τ).loc main_arg1)) :=
  (W7_of_ne m ρ c main_v29 (by decide)).trans (norm_at6 m ρ c)

theorem arg5_at7 : W7 m ρ c (Proc.devRef .tc main_arg5) = (m ((c : Thread nD τ).loc main_arg5)) :=
  (W7_of_ne m ρ c main_arg5 (by decide)).trans (arg5_at6 m ρ c)

/-- The second product buffer after the second region is the reference's host product of the rectified layer with the
    second weight matrix. -/
theorem prod_at7 : W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Product1.final (V6 m ρ) c]
  show Product1.prod (W6 m ρ c (Proc.devRef .tc main_v47)) (W6 m ρ c (Proc.devRef .tc main_arg4)) = _
  rw [act_at6, arg4_at6]
  funext i
  obtain ⟨r, s, rfl⟩ : ∃ (r : Fin 50000) (s : Fin 128), i = ix2 r s := ⟨i 0, i 1, eq_ix2 i⟩
  rw [val_main_v48_apply, Product1.prod_apply]
  refine Finset.sum_congr rfl fun k _ => ?_
  have el : lidx_main_v48 (ix2 r s) k = ix2 r k := funext fun a => Fin.ext (by match a with | ⟨0, _⟩ => rfl | ⟨1, _⟩ => rfl)
  have er : ridx_main_v48 (ix2 r s) k = ix2 k s := funext fun a => Fin.ext (by match a with | ⟨0, _⟩ => rfl | ⟨1, _⟩ => rfl)
  rw [el, er]

/-! ## After the last stretch: the result -/

set_option maxHeartbeats 4000000 in
/-- The result from any contents that hold the second product, the index vectors, the edge weights and the second bias. -/
theorem result_stage (V : Valuation τ sig (Elt Ideal))
    (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (h48 : V (Proc.devRef .tc main_v48) = val_main_v48 (F := Ideal) x0 x1 x2 x3 x4)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (hb : V (Proc.devRef .tc main_arg5) = x5) :
    StableHlo.after hostOps2 V (Proc.devRef .tc main_v64) = val_main_v64 (F := Ideal) x0 x1 x2 x3 x4 x5 := by
  after_results_simp
  rw [h48, h3, h6, h29, hb]
  rfl

/-- The kernel program's result buffer at the end of its run is the reference's last stage of the same arguments. -/
theorem result_eq : W8 m ρ c (Proc.devRef .tc main_v64) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  result_stage (W7 m ρ c) _ _ _ _ _ _ (prod_at7 m ρ c) (src_at7 m ρ c) (dst_at7 m ρ c) (norm_at7 m ρ c) (arg5_at7 m ρ c)

end Cert.KernelIdeal.Chain

end
-- ==== Proof.lean ====
/-
  A two-layer graph convolution: the Pallas program against its jnp reference, over the extended reals.

  Both programs append a self loop to every node, count in-degrees by a scatter-add of ones, weight edge e by
  d(src e)^(-1/2) · d(dst e)^(-1/2) (zero where a degree is not positive), and then twice: multiply the node
  features by a weight matrix, gather the product's rows at the edge sources, scale them by the edge weights,
  scatter-add them into the edge destinations and add a bias; a rectifier sits between the two layers. The
  reference multiplies on the host; the Pallas program multiplies in two regions, each over ten blocks of
  5000 rows, rounding its operands to bf16 on the way into the product. Over the extended reals that
  rounding is the identity and each region's output is the whole product (its row blocks tile the output, and
  entry (r, s) of a block is the sum over k of x(r, k) · w(k, s), as the host product's is), so the two
  programs apply the same operations to equal operands at every stage and end with the same result. No
  finiteness of the inputs is used: the only law is that the two products are the same sum.

  The three frames: the two Pallas programs' are the generated frame certificates; the reference's is its run
  with the result dropped. The idealization rewrote nothing, so `preserves` has nothing to state.
-/
import proofs.«177517_j80023830659738_1_alg».proof.Defs
import proofs.«177517_j80023830659738_1_alg».proof.Proof.Gen.Kernel
import proofs.«177517_j80023830659738_1_alg».proof.Proof.Gen.Kernel.Skeleton
import proofs.«177517_j80023830659738_1_alg».proof.Proof.Gen.Kernel.Launch
import proofs.«177517_j80023830659738_1_alg».proof.Proof.Gen.Kernel.Points
import proofs.«177517_j80023830659738_1_alg».proof.Proof.Gen.Kernel.Frame
import proofs.«177517_j80023830659738_1_alg».proof.Proof.Gen.KernelIdeal
import proofs.«177517_j80023830659738_1_alg».proof.Proof.Gen.KernelIdeal.Skeleton
import proofs.«177517_j80023830659738_1_alg».proof.Proof.Gen.KernelIdeal.Launch
import proofs.«177517_j80023830659738_1_alg».proof.Proof.Gen.KernelIdeal.Points
import proofs.«177517_j80023830659738_1_alg».proof.Proof.Gen.KernelIdeal.Frame
import proofs.«177517_j80023830659738_1_alg».proof.Proof.Gen.ReferenceIdeal
import proofs.«177517_j80023830659738_1_alg».proof.Proof.Gen.Pre_finite_inputs
import proofs.«177517_j80023830659738_1_alg».proof.Proof.RunP
import proofs.«177517_j80023830659738_1_alg».proof.Proof.ReadP
import proofs.«177517_j80023830659738_1_alg».proof.Proof.KernelRun
import proofs.«177517_j80023830659738_1_alg».proof.Proof.HostChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the six arguments both programs run, and on every device the Pallas program's result
    buffer ends at the reference's last stage of the arguments, which is where the reference's ends. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.Result.run_result m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v64 m' c = Cert.KernelIdeal.Gen.W8 m ρ c (Proc.devRef .tc Cert.KernelIdeal.main_v64)
  rw [Cert.ReferenceIdeal.ReadP.val_main_v64_eq, Cert.KernelIdeal.Chain.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
